-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x512x512 : Shape := ⟨3, ![8, 512, 512]⟩
abbrev S8x512 : Shape := ⟨2, ![8, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S8x4096x512 .f32) (main_arg1 : FVec F S8x512x512 .f32) (main_arg2 : FVec F S8x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S8x4096x512 : Shape := ⟨3, ![8, 4096, 512]⟩
abbrev S8x512x512 : Shape := ⟨3, ![8, 512, 512]⟩
abbrev S8x512 : Shape := ⟨2, ![8, 512]⟩
abbrev S8x1x512 : Shape := ⟨3, ![8, 1, 512]⟩
abbrev S1x2048x512 : Shape := ⟨3, ![1, 2048, 512]⟩
abbrev S1x512x512 : Shape := ⟨3, ![1, 512, 512]⟩
abbrev S1x1x512 : Shape := ⟨3, ![1, 1, 512]⟩
abbrev S2048x512 : Shape := ⟨2, ![2048, 512]⟩
abbrev S512x512 : Shape := ⟨2, ![512, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S8x4096x512, .f32⟩
  | .hbm, ⟨1, _⟩ => ⟨S8x512x512, .f32⟩
  | .hbm, ⟨2, _⟩ => ⟨S8x512, .f32⟩
  | .hbm, ⟨3, _⟩ => ⟨S8x1x512, .f32⟩
  | .hbm, ⟨4, _⟩ => ⟨S8x4096x512, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S8x512_S8x1x512_0_2 : S8x512.BroadcastsInDim S8x1x512 (![0, 2] : Fin 2 → Fin S8x1x512.rank)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  shapeCasts_S2048x512_S1x2048x512 : S2048x512.ShapeCasts S1x2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x4096x512.size a
  hwx0_0 : ∀ i : grid0.Coords, EltTy.bits .f32 = 32 ∨ (Rect.block (s := S8x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x4096x512.size a
  hwx0_3 : ∀ i : grid0.Coords, EltTy.bits .f32 = 32 ∨ (Rect.block (s := S8x4096x512) S1x2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x512x512 : Shape := ⟨3, ![8, 512, 512]⟩
abbrev S8x512 : Shape := ⟨2, ![8, 512]⟩
abbrev S8x1x512 : Shape := ⟨3, ![8, 1, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x512x512, .f32⟩
  | .hbm, ⟨2, _⟩ => ⟨S8x512, .f32⟩
  | .hbm, ⟨3, _⟩ => ⟨S8x4096x512, .f32⟩
  | .hbm, ⟨4, _⟩ => ⟨S8x1x512, .f32⟩
  | .hbm, ⟨5, _⟩ => ⟨S8x4096x512, .f32⟩
  | .hbm, ⟨6, _⟩ => ⟨S8x4096x512, .f32⟩
  | .hbm, ⟨7, _⟩ => ⟨S_, .f32⟩
  | .hbm, ⟨8, _⟩ => ⟨S8x4096x512, .f32⟩
  | .hbm, ⟨9, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S8x512_S8x1x512_0_2 : S8x512.BroadcastsInDim S8x1x512 (![0, 2] : Fin 2 → Fin S8x1x512.rank)
  bcast_S8x1x512_S8x4096x512_0_1_2 : S8x1x512.BroadcastsInDim S8x4096x512 (![0, 1, 2] : Fin 3 → Fin S8x4096x512.rank)
  bcast_S_S8x4096x512 : S_.BroadcastsInDim S8x4096x512 (![] : Fin 0 → Fin S8x4096x512.rank)
  dot_S8x4096x512_S8x512x512_S8x4096x512_2_1_1_2_0_0_wf : DotDims.WF S8x4096x512 S8x512x512 S8x4096x512 [2] [1] [1] [2] [0] [0]

variable [Facts₀]

def dot_S8x4096x512_S8x512x512_S8x4096x512_2_1_1_2_0_0 : DotDims S8x4096x512 S8x512x512 S8x4096x512 where
  lhsContracting := [2]
  rhsContracting := [1]
  lhsNonContracting := [1]
  rhsNonContracting := [2]
  lhsBatch := [0]
  rhsBatch := [0]
  wf := dot_S8x4096x512_S8x512x512_S8x4096x512_2_1_1_2_0_0_wf

class Facts : Prop extends Facts₀ where

variable [Facts]
-- ==== Proof.AffineRelu.lean ====
/-
  The function both programs compute, entry by entry, on the extended reals.

  For a batch index p (8 of them), a row r (4096) and an output column o (512),

      out[p, r, o] = max ( Σ_k x[p, r, k] · w[p, k, o]  +  b[p, o] ,  0 ),

  the sum over the 512 contracted columns: a batched matrix product, a bias added along the rows, and the
  positive part.  The zero is kept as the word both programs print; it is never evaluated.  No finiteness of
  x, w or b is used anywhere: each program forms the same 512 products, and a finite sum does not depend on
  how its terms are indexed.
-/
import Idealize.ShloMosaic.PureOps.Ideal.Laws
import Idealize.ShloMosaic.Lib.ValueIdx

noncomputable section

namespace Cert.AffineRelu

open Idealize.ShloMosaic Idealize.ShloMosaic.ValueIdx

/-- One entry of the result: the row of `x` against the column of `w` in batch `p`, plus the bias of that
    batch and column, cut off below at zero. -/
def entry (x : (⟨3, ![8, 4096, 512]⟩ : Shape).Idx → EReal) (w : (⟨3, ![8, 512, 512]⟩ : Shape).Idx → EReal)
    (b : (⟨2, ![8, 512]⟩ : Shape).Idx → EReal) (p : Fin 8) (r : Fin 4096) (o : Fin 512) : EReal :=
  max ((∑ k : Fin 512, x (ix3 p r k) * w (ix3 p k o)) + b (ix2 p o)) (Ideal.ofBits .f32 0x00000000#32)

/-- The whole result array, index by index. -/
def batchedAffineRelu (x : (⟨3, ![8, 4096, 512]⟩ : Shape).Idx → EReal) (w : (⟨3, ![8, 512, 512]⟩ : Shape).Idx → EReal)
    (b : (⟨2, ![8, 512]⟩ : Shape).Idx → EReal) : (⟨3, ![8, 4096, 512]⟩ : Shape).Idx → EReal :=
  fun i => entry x w b (i 0) (i 1) (i 2)

/-- The result at an index written by its coordinates. -/
theorem batchedAffineRelu_ix3 (x : (⟨3, ![8, 4096, 512]⟩ : Shape).Idx → EReal) (w : (⟨3, ![8, 512, 512]⟩ : Shape).Idx → EReal)
    (b : (⟨2, ![8, 512]⟩ : Shape).Idx → EReal) (p : Fin 8) (r : Fin 4096) (o : Fin 512) :
    batchedAffineRelu x w b (ix3 p r o) = entry x w b p r o := rfl

end Cert.AffineRelu

end
-- ==== Proof.ReferenceValue.lean ====
/-
  The reference computes the specification.

  Its program is one batched `dot_general` (batch axis 0, contracting the last axis of the left operand with
  the middle axis of the right), the bias made an [8, 1, 512] array and repeated down the 4096 rows, an
  addition, and a maximum with the zero constant repeated everywhere.  Read at the index (p, r, o): the product
  is the sum over k of x[p, r, k] · w[p, k, o]; the repeated bias reads b[p, o]; the repeated constant reads
  the zero word.  That is the specification's entry.
-/
import proofs.«176803_j69140383531521_2_alg».proof.Proof.Gen.ReferenceIdeal.Read
import proofs.«176803_j69140383531521_2_alg».proof.Proof.AffineRelu

noncomputable section

namespace Cert.ReferenceIdeal.RefValue

open Cert.ReferenceIdeal Cert.ReferenceIdeal.Read Idealize.ShloMosaic Idealize.ShloMosaic.ValueIdx Cert.AffineRelu

/-- The reference's last stage, as a function of the three argument arrays, is the specification. -/
theorem reference_eq (x0 : (⟨S8x4096x512, .f32⟩ : BufTy).Contents (Elt Ideal)) (x1 : (⟨S8x512x512, .f32⟩ : BufTy).Contents (Elt Ideal))
    (x2 : (⟨S8x512, .f32⟩ : BufTy).Contents (Elt Ideal)) :
    val_main_v4 (F := Ideal) x0 x1 x2 = batchedAffineRelu x0 x1 x2 := by
  funext i
  obtain ⟨p, r, o, rfl⟩ : ∃ (p : Fin 8) (r : Fin 4096) (o : Fin 512), i = ix3 p r o := ⟨i 0, i 1, i 2, eq_ix3 i⟩
  rw [val_main_v4_apply, val_main_v3_apply, val_main_v0_apply, val_main_v2_apply, val_main_v1_apply,
    val_main_call0_v0_apply, val_main_call0_cst_apply]
  -- the operands' indices at (p, r, o) and contraction index k, by coordinates
  have el : ∀ k : Fin 512, lidx_main_v0 (ix3 p r o) k = ix3 p r k := fun k => funext fun a => Fin.ext (by
    match a with
    | ⟨0, _⟩ => rfl
    | ⟨1, _⟩ => rfl
    | ⟨2, _⟩ => rfl)
  have er : ∀ k : Fin 512, ridx_main_v0 (ix3 p r o) k = ix3 p k o := fun k => funext fun a => Fin.ext (by
    match a with
    | ⟨0, _⟩ => rfl
    | ⟨1, _⟩ => rfl
    | ⟨2, _⟩ => rfl)
  -- the bias, repeated down the rows, read at (p, r, o), is the bias at (p, o)
  have eb : idx_main_v1 (idx_main_v2 (ix3 p r o)) = ix2 p o := funext fun a => Fin.ext (by
    match a with
    | ⟨0, _⟩ => rfl
    | ⟨1, _⟩ => rfl)
  simp only [el, er, eb]
  rfl

end Cert.ReferenceIdeal.RefValue

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.BodyValue.lean ====
/-
  What the kernel body stores, read at one index.

  At a grid point the body holds a [1, 2048, 512] block of x, a [1, 512, 512] block of w (one whole batch)
  and a [1, 1, 512] block of the bias.  It drops the leading unit axis of each, rounds x and w to bf16 (the
  identity on the extended reals), multiplies the [2048, 512] rows by the [512, 512] matrix into a zero
  accumulator, adds the bias row to every row, takes the maximum with zero, and stores the result with the
  unit axis put back.  So the stored block, at (u, r, o), is

      max ( Σ_k x[0, r, k] · w[0, k, o]  +  b[0, 0, o] ,  0 )

  of the three blocks: the product into the zero accumulator is just the sum of the 512 products.
-/
import proofs.«176803_j69140383531521_2_alg».proof.Proof.Gen.KernelIdeal.Skeleton
import proofs.«176803_j69140383531521_2_alg».proof.Proof.LibSplitContraction
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices, by coordinates

The product contracts axis 1 of the left operand with axis 0 of the right: at the output entry (r, c) and the
contraction index k the operands are read at (r, k) and (k, c). -/

theorem lhs_row (j : S2048x512.Idx) (q : dot_S2048x512_S512x512_S2048x512_1_0_0_1_n_n.contr.Idx) :
    (dot_S2048x512_S512x512_S2048x512_1_0_0_1_n_n.lhsIdx j q 0).val = (j 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl

theorem lhs_contracted (j : S2048x512.Idx) (q : dot_S2048x512_S512x512_S2048x512_1_0_0_1_n_n.contr.Idx) :
    (dot_S2048x512_S512x512_S2048x512_1_0_0_1_n_n.lhsIdx j q 1).val = (q ⟨0, by decide⟩).val :=
  dot_S2048x512_S512x512_S2048x512_1_0_0_1_n_n.lhsIdx_val_of_single rfl j q

theorem rhs_contracted (j : S2048x512.Idx) (q : dot_S2048x512_S512x512_S2048x512_1_0_0_1_n_n.contr.Idx) :
    (dot_S2048x512_S512x512_S2048x512_1_0_0_1_n_n.rhsIdx j q 0).val = (q ⟨0, by decide⟩).val :=
  dot_S2048x512_S512x512_S2048x512_1_0_0_1_n_n.rhsIdx_val_of_single rfl j q

theorem rhs_column (j : S2048x512.Idx) (q : dot_S2048x512_S512x512_S2048x512_1_0_0_1_n_n.contr.Idx) :
    (dot_S2048x512_S512x512_S2048x512_1_0_0_1_n_n.rhsIdx j q 1).val = (j 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-! ## The stored value at (u, r, o) -/

/-- The body's stored block at (u, r, o): the row r of the x block against the column o of the w block,
    plus the bias block's entry at column o, cut off below at zero. -/
theorem stored_at (x0 : Vec Ideal S1x2048x512 .f32) (x1 : Vec Ideal S1x512x512 .f32) (x2 : Vec Ideal S1x1x512 .f32)
    (u : Fin 1) (r : Fin 2048) (o : Fin 512) :
    k0_pay1 (F := Ideal) x0 x1 x2 (ix3 u r o)
      = max ((∑ k : Fin 512, x0 (ix3 (0 : Fin 1) r k) * x1 (ix3 (0 : Fin 1) k o)) + x2 (ix3 (0 : Fin 1) (0 : Fin 1) o))
          (Ideal.ofBits .f32 0x00000000#32) := by
  unfold k0_pay1
  -- the unit axis put back: the block at (u, r, o) is the [2048, 512] value at (r, o)
  refine (shapeCast_ab_1ab_apply _ _ u r o).trans ?_
  -- maximum and sum are entrywise; the repeated zero reads the zero word
  show max (FloatOps.matmul dot_S2048x512_S512x512_S2048x512_1_0_0_1_n_n none
        (truncf .bf16 (shapeCast S2048x512 x0 shapeCasts_S1x2048x512_S2048x512) bitsLt_bf16_f32)
        (truncf .bf16 (shapeCast S512x512 x1 shapeCasts_S1x512x512_S512x512) bitsLt_bf16_f32)
        (constant (F := Ideal) S2048x512 .f32 0x00000000#32) (ix2 r o)
      + broadcastTo S2048x512 (shapeCast S1x512 x2 shapeCasts_S1x1x512_S1x512) broadcasts_S1x512_S2048x512 (ix2 r o))
      (Ideal.ofBits .f32 0x00000000#32) = _
  -- the product into the zero accumulator, at (r, o), is the sum of the products along the row and the column
  have hprod := Cert.Lib.SplitContraction.matmul_zero_at (n := 2048) (K := 512) (d := 512)
    dot_S2048x512_S512x512_S2048x512_1_0_0_1_n_n rfl rfl lhs_row lhs_contracted rhs_contracted rhs_column none
    (truncf .bf16 (shapeCast S2048x512 x0 shapeCasts_S1x2048x512_S2048x512) bitsLt_bf16_f32)
    (truncf .bf16 (shapeCast S512x512 x1 shapeCasts_S1x512x512_S512x512) bitsLt_bf16_f32) r o
  -- the bias row, repeated down the rows, at (r, o) is the bias block at (0, 0, o)
  have hbias : broadcastTo S2048x512 (shapeCast S1x512 x2 shapeCasts_S1x1x512_S1x512) broadcasts_S1x512_S2048x512 (ix2 r o)
      = x2 (ix3 (0 : Fin 1) (0 : Fin 1) o) :=
    (broadcastTo_1b_ab_apply _ _ r o).trans (shapeCast_1ab_ab_apply x2 _ (0 : Fin 1) o)
  rw [hprod, hbias]
  -- rounding to bf16 is the identity here, and each operand without its unit axis reads the block at (0, ·, ·)
  refine congrArg (fun s => max (s + x2 (ix3 (0 : Fin 1) (0 : Fin 1) o)) (Ideal.ofBits .f32 0x00000000#32))
    (Finset.sum_congr rfl fun k _ => ?_)
  show shapeCast S2048x512 x0 shapeCasts_S1x2048x512_S2048x512 (ix2 r k) * shapeCast S512x512 x1 shapeCasts_S1x512x512_S512x512 (ix2 k o) = _
  rw [shapeCast_1ab_ab_apply x0 _ r k, shapeCast_1ab_ab_apply x1 _ k o]

end Cert.KernelIdeal.Body

end
-- ==== Proof.KernelValue.lean ====
/-
  From blocks to the whole array: what the kernel leaves in its result.

  The grid has 8 × 2 points.  At the point (p, h) the kernel is given rows h·2048 … h·2048 + 2047 of batch p
  of x, all of batch p of w, and the bias row of batch p (from an [8, 1, 512] copy of the bias made before the
  launch), and writes back rows h·2048 … h·2048 + 2047 of batch p of the result.  The sixteen blocks written
  back tile the [8, 4096, 512] result, and what a point writes is the specification restricted to its block:
  the body's stored entry (u, r, o) is the specification's entry (p, h·2048 + r, o).  Hence the result array
  ends holding the specification of the three argument arrays.
-/
import proofs.«176803_j69140383531521_2_alg».proof.Proof.Gen.KernelIdeal.Value
import proofs.«176803_j69140383531521_2_alg».proof.Proof.BodyValue
import proofs.«176803_j69140383531521_2_alg».proof.Proof.AffineRelu
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.AffineRelu
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-! ## Which block each window holds at a point -/

/-- The printed index maps over the sixteen points: the x window moves with the result window on the batch
    and row-block axes; the w and bias windows follow it on the batch axis only and sit at block 0 elsewhere;
    the result's batch index is below 8 and its row-block index below 2. -/
theorem block_indices : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) ≤ 1 ∧ win0_3.index t (2 : Fin 3) = 0 :=
  (by decide +kernel : ∀ t : Fin grid0.N, _)

/-- Every (batch, row-block) pair is some point's result block. -/
theorem block_onto : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-! ## The input blocks as entries of the argument arrays -/

/-- The x block at a point, at (0, r, k), is x at (batch, row-block · 2048 + r, k). -/
theorem x_block_at (c : Dev nD) (t : Fin cfg0.N) (r : Fin 2048) (k : Fin 512) (p : Fin 8) (R : Fin 4096)
    (hp : p.val = win0_3.index t (0 : Fin 3)) (hR : R.val = win0_3.index t (1 : Fin 3) * 2048 + r.val) :
    (iblk m c 0 t : Vec Ideal S1x2048x512 .f32) (ix3 (0 : Fin 1) r k)
      = (m ((c : Thread nD τ).loc main_arg0) : S8x4096x512.Idx → EReal) (ix3 p R k) := by
  obtain ⟨e00, e01, e02, -⟩ := block_indices t
  unfold iblk
  rw [View.read_apply]
  show (V m c main_arg0 : S8x4096x512.Idx → EReal) _ = _
  rw [V_main_arg0]
  refine congrArg (m ((c : Thread nD τ).loc main_arg0) : S8x4096x512.Idx → EReal) (funext fun a => Fin.ext ?_)
  match a with
  | ⟨0, _⟩ => show win0_0.index t (0 : Fin 3) * 1 + 1 * 0 = p.val; omega
  | ⟨1, _⟩ => show win0_0.index t (1 : Fin 3) * 2048 + 1 * r.val = R.val; omega
  | ⟨2, _⟩ => show win0_0.index t (2 : Fin 3) * 512 + 1 * k.val = k.val; omega

/-- The w block at a point, at (0, k, o), is w at (batch, k, o). -/
theorem w_block_at (c : Dev nD) (t : Fin cfg0.N) (k : Fin 512) (o : Fin 512) (p : Fin 8)
    (hp : p.val = win0_3.index t (0 : Fin 3)) :
    (iblk m c 1 t : Vec Ideal S1x512x512 .f32) (ix3 (0 : Fin 1) k o)
      = (m ((c : Thread nD τ).loc main_arg1) : S8x512x512.Idx → EReal) (ix3 p k o) := by
  obtain ⟨-, -, -, e10, e11, e12, -⟩ := block_indices t
  unfold iblk
  rw [View.read_apply]
  show (V m c main_arg1 : S8x512x512.Idx → EReal) _ = _
  rw [V_main_arg1]
  refine congrArg (m ((c : Thread nD τ).loc main_arg1) : S8x512x512.Idx → EReal) (funext fun a => Fin.ext ?_)
  match a with
  | ⟨0, _⟩ => show win0_1.index t (0 : Fin 3) * 1 + 1 * 0 = p.val; omega
  | ⟨1, _⟩ => show win0_1.index t (1 : Fin 3) * 512 + 1 * k.val = k.val; omega
  | ⟨2, _⟩ => show win0_1.index t (2 : Fin 3) * 512 + 1 * o.val = o.val; omega

/-- The array the bias window stages: the bias with a unit axis inserted, made before the launch. -/
theorem staged_bias (c : Dev nD) :
    (V m c main_v0 : S8x1x512.Idx → EReal)
      = broadcastInDim S8x1x512 ![0, 2] bcast_S8x512_S8x1x512_0_2 (m ((c : Thread nD τ).loc main_arg2)) := by
  dsimp only [Gen.V, Gen.hostOps0]; after_results

/-- That array at (p, 0, o) is the bias at (p, o). -/
theorem staged_bias_at (c : Dev nD) (p : Fin 8) (u : Fin 1) (o : Fin 512) :
    (V m c main_v0 : S8x1x512.Idx → EReal) (ix3 p u o)
      = (m ((c : Thread nD τ).loc main_arg2) : S8x512.Idx → EReal) (ix2 p o) := by
  refine (congrFun (staged_bias m c) (ix3 p u o)).trans ?_
  exact broadcastInDim_apply _ bcast_S8x512_S8x1x512_0_2 _ (ix3 p u o) (ix2 p o) (fun a => match a with
    | ⟨0, _⟩ => by show p.val = if (8 : Nat) = 1 then 0 else p.val; rw [if_neg (by decide)]
    | ⟨1, _⟩ => by show o.val = if (512 : Nat) = 1 then 0 else o.val; rw [if_neg (by decide)])

/-- The bias block at a point, at (0, 0, o), is the bias at (batch, o). -/
theorem bias_block_at (c : Dev nD) (t : Fin cfg0.N) (o : Fin 512) (p : Fin 8)
    (hp : p.val = win0_3.index t (0 : Fin 3)) :
    (iblk m c 2 t : Vec Ideal S1x1x512 .f32) (ix3 (0 : Fin 1) (0 : Fin 1) o)
      = (m ((c : Thread nD τ).loc main_arg2) : S8x512.Idx → EReal) (ix2 p o) := by
  obtain ⟨-, -, -, -, -, -, e20, e21, e22, -⟩ := block_indices t
  unfold iblk
  rw [View.read_apply]
  show (V m c main_v0 : S8x1x512.Idx → EReal) _ = _
  refine Eq.trans (congrArg (V m c main_v0 : S8x1x512.Idx → EReal) (funext fun a => Fin.ext ?_)) (staged_bias_at m c p (0 : Fin 1) o)
  match a with
  | ⟨0, _⟩ => show win0_2.index t (0 : Fin 3) * 1 + 1 * 0 = p.val; omega
  | ⟨1, _⟩ => show win0_2.index t (1 : Fin 3) * 1 + 1 * 0 = 0; omega
  | ⟨2, _⟩ => show win0_2.index t (2 : Fin 3) * 512 + 1 * o.val = o.val; omega

/-! ## What a point writes back -/

/-- What point `t` writes back is its block of the specification of the three argument arrays. -/
theorem flushed_eq (c : Dev nD) (t : Fin cfg0.N) :
    (dats m 0 c).flushed 3 t = ((cfg0.win 3).blk t).view.read (Elt Ideal)
      (batchedAffineRelu (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S1x2048x512) zero_offsets, View.ld_unit_zero (S := S1x512x512) zero_offsets,
    View.ld_unit_zero (S := S1x1x512) zero_offsets]
  obtain ⟨-, -, -, -, -, -, -, -, -, b0, b1, b2⟩ := block_indices t
  funext j
  obtain ⟨u, r, o, rfl⟩ : ∃ (u : Fin 1) (r : Fin 2048) (o : Fin 512), j = ix3 u r o := ⟨j 0, j 1, j 2, eq_ix3 j⟩
  show k0_pay1 (iblk m c 0 t) (iblk m c 1 t) (iblk m c 2 t) (ix3 u r o)
    = batchedAffineRelu (m ((c : Thread nD τ).loc main_arg0)) (m ((c : Thread nD τ).loc main_arg1)) (m ((c : Thread nD τ).loc main_arg2))
        (((cfg0.win 3).blk t).view.emb (ix3 u r o))
  refine (Cert.KernelIdeal.Body.stored_at (iblk m c 0 t) (iblk m c 1 t) (iblk m c 2 t) u r o).trans ?_
  -- the array index under the block's entry (u, r, o), by coordinates
  have hu : u.val = 0 := by omega
  obtain ⟨p, R, O, hi⟩ : ∃ (p : Fin 8) (R : Fin 4096) (O : Fin 512), ((cfg0.win 3).blk t).view.emb (ix3 u r o) = ix3 p R O :=
    ⟨_, _, _, eq_ix3 _⟩
  have hp : p.val = win0_3.index t (0 : Fin 3) := by
    have h : win0_3.index t (0 : Fin 3) * 1 + 1 * u.val = p.val := congrArg Fin.val (congrFun hi 0)
    omega
  have hR : R.val = win0_3.index t (1 : Fin 3) * 2048 + r.val := by
    have h : win0_3.index t (1 : Fin 3) * 2048 + 1 * r.val = R.val := congrArg Fin.val (congrFun hi 1)
    omega
  have hO : O = o := by
    have h : win0_3.index t (2 : Fin 3) * 512 + 1 * o.val = O.val := congrArg Fin.val (congrFun hi 2)
    exact Fin.ext (by omega)
  subst hO
  refine Eq.trans ?_ (congrArg (batchedAffineRelu (m ((c : Thread nD τ).loc main_arg0)) (m ((c : Thread nD τ).loc main_arg1)) (m ((c : Thread nD τ).loc main_arg2))) hi.symm)
  rw [batchedAffineRelu_ix3]
  unfold entry
  rw [bias_block_at m c t O p hp]
  refine congrArg (fun s => max (s + (m ((c : Thread nD τ).loc main_arg2) : S8x512.Idx → EReal) (ix2 p O)) (Ideal.ofBits .f32 0x00000000#32))
    (Finset.sum_congr rfl fun k _ => ?_)
  rw [x_block_at m c t r k p R hp hR, w_block_at m c t k O p hp]

/-! ## The blocks tile the result -/

/-- An index is in point `t`'s result block iff each coordinate is in the block's range on its axis. -/
theorem mem_block (t : Fin cfg0.N) (i : S8x4096x512.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v1).slice (win0_3.rect t)).set ↔ _
  rw [View.set_slice_whole, Rect.mem_set_unit]
  exact Iff.rfl

/-- Every index of the result is in the block of the point (batch, row / 2048), which writes back. -/
theorem covered (i : S8x4096x512.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 512 := (i 2).isLt
  obtain ⟨t, ht⟩ := block_onto ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-! ## The result array, and the run -/

/-- After the run the result array holds the specification of the three argument arrays. -/
theorem result_array (c : Dev nD) :
    (dats m 0 c).arrAt 3 cfg0.N
      = batchedAffineRelu (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program terminates with the result array at the
    specification of the argument arrays, and the argument arrays unchanged. -/
theorem run : θ_run defs (onTc (τ := τ) (main (F := Ideal))) ⟨m, fun _ => 0, ρ⟩ fun r => ∀ c : Dev nD,
      r.2.mem ((c : Thread nD τ).loc main_v1)
        = batchedAffineRelu (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩)
    (Cert.KernelIdeal.Value.run_blocks m ρ)

end Cert.KernelIdeal.Whole

end
-- ==== Proof.lean ====
/-
  The kernel and its reference compute the same array.

  Inputs: x of shape [8, 4096, 512], w of shape [8, 512, 512], b of shape [8, 512].  Both programs compute

      out[p, r, o] = max ( Σ_k x[p, r, k] · w[p, k, o]  +  b[p, o] ,  0 )

  (Proof/AffineRelu.lean).  The kernel does it block by block: sixteen grid points, each multiplying 2048 rows of
  one batch of x by that batch's whole w into a zero accumulator (after a rounding to bf16 that is the identity on
  the extended reals), adding the batch's bias row and taking the positive part; the sixteen blocks it writes back
  tile the result (Proof/BodyValue.lean for one block, Proof/KernelValue.lean for the array).  The reference does
  it as one batched product, a bias repeated down the rows, a sum and a maximum (Proof/ReferenceValue.lean).  The
  two sides meet in the specification with no algebra beyond re-indexing a finite sum, so the precondition that
  the inputs be finite is never opened.

  The three frames are the generated ones (the reference's from its generated run); the kernel's idealization
  rewrote nothing, so there is nothing to preserve.
-/
import proofs.«176803_j69140383531521_2_alg».proof.Defs
import proofs.«176803_j69140383531521_2_alg».proof.Proof.Gen.Kernel
import proofs.«176803_j69140383531521_2_alg».proof.Proof.Gen.Kernel.Skeleton
import proofs.«176803_j69140383531521_2_alg».proof.Proof.Gen.Kernel.Launch
import proofs.«176803_j69140383531521_2_alg».proof.Proof.Gen.Kernel.Points
import proofs.«176803_j69140383531521_2_alg».proof.Proof.Gen.Kernel.Frame
import proofs.«176803_j69140383531521_2_alg».proof.Proof.Gen.KernelIdeal
import proofs.«176803_j69140383531521_2_alg».proof.Proof.Gen.KernelIdeal.Skeleton
import proofs.«176803_j69140383531521_2_alg».proof.Proof.Gen.KernelIdeal.Launch
import proofs.«176803_j69140383531521_2_alg».proof.Proof.Gen.KernelIdeal.Points
import proofs.«176803_j69140383531521_2_alg».proof.Proof.Gen.KernelIdeal.Frame
import proofs.«176803_j69140383531521_2_alg».proof.Proof.Gen.ReferenceIdeal
import proofs.«176803_j69140383531521_2_alg».proof.Proof.Gen.Pre_finite_inputs
import proofs.«176803_j69140383531521_2_alg».proof.Proof.Gen.KernelIdeal.Value
import proofs.«176803_j69140383531521_2_alg».proof.Proof.Gen.ReferenceIdeal.Run
import proofs.«176803_j69140383531521_2_alg».proof.Proof.Gen.ReferenceIdeal.Read
import proofs.«176803_j69140383531521_2_alg».proof.Proof.AffineRelu
import proofs.«176803_j69140383531521_2_alg».proof.Proof.ReferenceValue
import proofs.«176803_j69140383531521_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x, w and b both programs end with the specification of x, w and b in their
    result arrays: the kernel by its blocks, the reference by its one batched product. -/
theorem algebraic : Cert.algebraic_KernelIdeal_ReferenceIdeal := by
  intro m ρ m' ρ' _ hagree
  refine ⟨fun c => Cert.AffineRelu.batchedAffineRelu
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
